-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256 : Shape := ⟨3, ![4, 256, 256]⟩
abbrev S4x64x256 : Shape := ⟨3, ![4, 64, 256]⟩
abbrev S1024x256 : Shape := ⟨2, ![1024, 256]⟩
abbrev S1024 : Shape := ⟨1, ![1024]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S4x64x256 : S_.BroadcastsInDim S4x64x256 (![] : Fin 0 → Fin S4x64x256.rank)
  reducesTo_S4x64x256_S_d0_1_2 : S4x64x256.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x256x256 .f32) (main_arg1 : FVec F S4x64x256 .f32) (main_arg2 : FVec F S1024x256 .f32) (main_arg3 : FVec F S1024 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S4x64x256 .f32 := Host.absf main_arg1
  let main_cst_0 : FVec F S_ .f32 := constant S_ .f32 0x7F800000#32
  let main_v5 : FVec F S4x64x256 .f32 := broadcastInDim S4x64x256 ![] bcast_S_S4x64x256 main_cst_0
  let main_v6 : IVec S4x64x256 1 := cmpf .olt main_v4 main_v5
  let main_c_1 : IVec S_ 1 := constantI S_ 1 1#1
  let main_v7 : IVec S_ 1 := (fun x v => Host.reduce IntOp.andi x v reducesTo_S4x64x256_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x256x256 : Shape := ⟨3, ![4, 256, 256]⟩
abbrev S4x64x256 : Shape := ⟨3, ![4, 64, 256]⟩
abbrev S1024x256 : Shape := ⟨2, ![1024, 256]⟩
abbrev S1024 : Shape := ⟨1, ![1024]⟩
abbrev S256x1024 : Shape := ⟨2, ![256, 1024]⟩
abbrev S4x256x64x1024 : Shape := ⟨4, ![4, 256, 64, 1024]⟩
abbrev S1x32x256 : Shape := ⟨3, ![1, 32, 256]⟩
abbrev S1x64x256 : Shape := ⟨3, ![1, 64, 256]⟩
abbrev S1x32x64x1024 : Shape := ⟨4, ![1, 32, 64, 1024]⟩
abbrev S64x256 : Shape := ⟨2, ![64, 256]⟩
abbrev S1x8x256 : Shape := ⟨3, ![1, 8, 256]⟩
abbrev S8x256 : Shape := ⟨2, ![8, 256]⟩
abbrev S8x1x256 : Shape := ⟨3, ![8, 1, 256]⟩
abbrev S8x64x256 : Shape := ⟨3, ![8, 64, 256]⟩
abbrev S512x256 : Shape := ⟨2, ![512, 256]⟩
abbrev S512x1024 : Shape := ⟨2, ![512, 1024]⟩
abbrev S1x1024 : Shape := ⟨2, ![1, 1024]⟩
abbrev S8x64x1024 : Shape := ⟨3, ![8, 64, 1024]⟩
abbrev S1x8x64x1024 : Shape := ⟨4, ![1, 8, 64, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x256x256, .f32⟩
  | .hbm, ⟨1, _⟩ => ⟨S4x64x256, .f32⟩
  | .hbm, ⟨2, _⟩ => ⟨S1024x256, .f32⟩
  | .hbm, ⟨3, _⟩ => ⟨S1024, .f32⟩
  | .hbm, ⟨4, _⟩ => ⟨S256x1024, .f32⟩
  | .hbm, ⟨5, _⟩ => ⟨S256x1024, .bf16⟩
  | .hbm, ⟨6, _⟩ => ⟨S4x256x64x1024, .f32⟩
  | .local _ .vmem, ⟨0, _⟩ => ⟨S1x32x256, .f32⟩
  | .local _ .vmem, ⟨1, _⟩ => ⟨S1x32x256, .f32⟩
  | .local _ .vmem, ⟨2, _⟩ => ⟨S1x64x256, .f32⟩
  | .local _ .vmem, ⟨3, _⟩ => ⟨S1x64x256, .f32⟩
  | .local _ .vmem, ⟨4, _⟩ => ⟨S256x1024, .bf16⟩
  | .local _ .vmem, ⟨5, _⟩ => ⟨S1024, .f32⟩
  | .local _ .vmem, ⟨6, _⟩ => ⟨S1x32x64x1024, .f32⟩
  | .local _ .vmem, ⟨7, _⟩ => ⟨S1x32x64x1024, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x256_S256x1024_1_0 : S1024x256.Transposes [1, 0] S256x1024
  bitsLt_bf16_f32 : FTy.bits .bf16 < FTy.bits .f32
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024_S1024_0 : ∀ a, (![0] : Fin 1 → Nat) a + S1024.size a ≤ S1024.size a
  h_S1024 : 0 < S1024.numel
  inb_S1x32x256_S1x8x256_0_0_0 : ∀ a, (![0, 0, 0] : Fin 3 → Nat) a + S1x8x256.size a ≤ S1x32x256.size a
  h_S1x8x256 : 0 < S1x8x256.numel
  shapeCasts_S1x8x256_S8x256 : S1x8x256.ShapeCasts S8x256
  shapeCasts_S8x256_S8x1x256 : S8x256.ShapeCasts S8x1x256
  shapeCasts_S64x256_S1x64x256 : S64x256.ShapeCasts S1x64x256
  broadcasts_S8x1x256_S8x64x256 : S8x1x256.Broadcasts S8x64x256
  broadcasts_S1x64x256_S8x64x256 : S1x64x256.Broadcasts S8x64x256
  shapeCasts_S8x64x256_S512x256 : S8x64x256.ShapeCasts S512x256
  shapeCasts_S1024_S1x1024 : S1024.ShapeCasts S1x1024
  broadcasts_S1x1024_S512x1024 : S1x1024.Broadcasts S512x1024
  shapeCasts_S512x1024_S8x64x1024 : S512x1024.ShapeCasts S8x64x1024
  inb_S1x32x64x1024_S1x8x64x1024_0_0_0_0 : ∀ a, (![0, 0, 0, 0] : Fin 4 → Nat) a + S1x8x64x1024.size a ≤ S1x32x64x1024.size a
  h_S1x8x64x1024 : 0 < S1x8x64x1024.numel
  shapeCasts_S1x8x64x1024_S8x64x1024 : S1x8x64x1024.ShapeCasts S8x64x1024
  shapeCasts_S8x64x1024_S1x8x64x1024 : S8x64x1024.ShapeCasts S1x8x64x1024
  inb_S1x32x256_S1x8x256_0_8_0 : ∀ a, (![0, 8, 0] : Fin 3 → Nat) a + S1x8x256.size a ≤ S1x32x256.size a
  inb_S1x32x64x1024_S1x8x64x1024_0_8_0_0 : ∀ a, (![0, 8, 0, 0] : Fin 4 → Nat) a + S1x8x64x1024.size a ≤ S1x32x64x1024.size a
  inb_S1x32x256_S1x8x256_0_16_0 : ∀ a, (![0, 16, 0] : Fin 3 → Nat) a + S1x8x256.size a ≤ S1x32x256.size a
  inb_S1x32x64x1024_S1x8x64x1024_0_16_0_0 : ∀ a, (![0, 16, 0, 0] : Fin 4 → Nat) a + S1x8x64x1024.size a ≤ S1x32x64x1024.size a
  inb_S1x32x256_S1x8x256_0_24_0 : ∀ a, (![0, 24, 0] : Fin 3 → Nat) a + S1x8x256.size a ≤ S1x32x256.size a
  inb_S1x32x64x1024_S1x8x64x1024_0_24_0_0 : ∀ a, (![0, 24, 0, 0] : Fin 4 → Nat) a + S1x8x64x1024.size a ≤ S1x32x64x1024.size a
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256.size a ≤ S4x256x256.size a
  hwx0_0 : ∀ i : grid0.Coords, EltTy.bits .f32 = 32 ∨ (Rect.block (s := S4x256x256) S1x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S4x64x256.size a
  hwx0_1 : ∀ i : grid0.Coords, EltTy.bits .f32 = 32 ∨ (Rect.block (s := S4x64x256) S1x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x64x1024.size a ≤ S4x256x64x1024.size a
  hwx0_4 : ∀ i : grid0.Coords, EltTy.bits .f32 = 32 ∨ (Rect.block (s := S4x256x64x1024) S1x32x64x1024.size (cc0_transform_4 i) (hinb0_4 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S1x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x256 : Shape := ⟨3, ![4, 256, 256]⟩
abbrev S4x64x256 : Shape := ⟨3, ![4, 64, 256]⟩
abbrev S1024x256 : Shape := ⟨2, ![1024, 256]⟩
abbrev S1024 : Shape := ⟨1, ![1024]⟩
abbrev S4x256x1x256 : Shape := ⟨4, ![4, 256, 1, 256]⟩
abbrev S4x1x64x256 : Shape := ⟨4, ![4, 1, 64, 256]⟩
abbrev S4x256x64x256 : Shape := ⟨4, ![4, 256, 64, 256]⟩
abbrev S4x256x64x1024 : Shape := ⟨4, ![4, 256, 64, 1024]⟩
abbrev S1x1x1x1024 : Shape := ⟨4, ![1, 1, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x64x256, .f32⟩
  | .hbm, ⟨2, _⟩ => ⟨S1024x256, .f32⟩
  | .hbm, ⟨3, _⟩ => ⟨S1024, .f32⟩
  | .hbm, ⟨4, _⟩ => ⟨S4x256x1x256, .f32⟩
  | .hbm, ⟨5, _⟩ => ⟨S4x1x64x256, .f32⟩
  | .hbm, ⟨6, _⟩ => ⟨S4x256x64x256, .f32⟩
  | .hbm, ⟨7, _⟩ => ⟨S4x256x64x256, .f32⟩
  | .hbm, ⟨8, _⟩ => ⟨S4x256x64x256, .f32⟩
  | .hbm, ⟨9, _⟩ => ⟨S4x256x64x1024, .f32⟩
  | .hbm, ⟨10, _⟩ => ⟨S1x1x1x1024, .f32⟩
  | .hbm, ⟨11, _⟩ => ⟨S4x256x64x1024, .f32⟩
  | .hbm, ⟨12, _⟩ => ⟨S4x256x64x1024, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4x256x256_S4x256x1x256_0_1_3 : S4x256x256.BroadcastsInDim S4x256x1x256 (![0, 1, 3] : Fin 3 → Fin S4x256x1x256.rank)
  bcast_S4x64x256_S4x1x64x256_0_2_3 : S4x64x256.BroadcastsInDim S4x1x64x256 (![0, 2, 3] : Fin 3 → Fin S4x1x64x256.rank)
  bcast_S4x256x1x256_S4x256x64x256_0_1_2_3 : S4x256x1x256.BroadcastsInDim S4x256x64x256 (![0, 1, 2, 3] : Fin 4 → Fin S4x256x64x256.rank)
  bcast_S4x1x64x256_S4x256x64x256_0_1_2_3 : S4x1x64x256.BroadcastsInDim S4x256x64x256 (![0, 1, 2, 3] : Fin 4 → Fin S4x256x64x256.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  dot_S4x256x64x256_S1024x256_S4x256x64x1024_3_1_012_0_n_n_wf : DotDims.WF S4x256x64x256 S1024x256 S4x256x64x1024 [3] [1] [0, 1, 2] [0] [] []

variable [Facts₀]

def dot_S4x256x64x256_S1024x256_S4x256x64x1024_3_1_012_0_n_n : DotDims S4x256x64x256 S1024x256 S4x256x64x1024 where
  lhsContracting := [3]
  rhsContracting := [1]
  lhsNonContracting := [0, 1, 2]
  rhsNonContracting := [0]
  lhsBatch := []
  rhsBatch := []
  wf := dot_S4x256x64x256_S1024x256_S4x256x64x1024_3_1_012_0_n_n_wf

class Facts : Prop extends Facts₀ where

variable [Facts]
-- ==== Proof.JointSpec.lean ====
/-
  The joint network of a transducer, entry by entry. For a batch element `n`, an encoder frame `t` and a predictor
  step `u`, the encoder's feature row `x[n, t, ·]` and the predictor's `y[n, u, ·]` are multiplied feature by feature,
  and the linear layer `(W, b)` maps the 256 products to the 1024 vocabulary scores:

      joint[n, t, u, v] = Σ_d x[n, t, d] · y[n, u, d] · W[v, d]  +  b[v].

  The sum and the products are the extended reals'. Both programs compute exactly this expression (the same
  association of the products, the same place of the bias), so no law of arithmetic is needed to join them, and
  no finiteness of the inputs either.
-/
import Idealize.ShloMosaic.Lib.ValueIdx

noncomputable section

open scoped BigOperators

namespace Cert.Joint

open Idealize.ShloMosaic Idealize.ShloMosaic.ValueIdx

/-- The score of vocabulary entry `v` for the pair (frame `t`, step `u`) of batch element `n`. -/
def jointAt (x : FVec Ideal ⟨3, ![4, 256, 256]⟩ .f32) (y : FVec Ideal ⟨3, ![4, 64, 256]⟩ .f32)
    (W : FVec Ideal ⟨2, ![1024, 256]⟩ .f32) (b : FVec Ideal ⟨1, ![1024]⟩ .f32)
    (n : Fin 4) (t : Fin 256) (u : Fin 64) (v : Fin 1024) : EReal :=
  (∑ k : Fin 256, x (ix3 n t k) * y (ix3 n u k) * W (ix2 v k)) + b (ix1 v)

/-- The whole table of scores, `[4, 256, 64, 1024]`. -/
def joint (x : FVec Ideal ⟨3, ![4, 256, 256]⟩ .f32) (y : FVec Ideal ⟨3, ![4, 64, 256]⟩ .f32)
    (W : FVec Ideal ⟨2, ![1024, 256]⟩ .f32) (b : FVec Ideal ⟨1, ![1024]⟩ .f32) :
    FVec Ideal ⟨4, ![4, 256, 64, 1024]⟩ .f32 :=
  fun i => jointAt x y W b (i 0) (i 1) (i 2) (i 3)

/-- The table at an index given by its coordinates. -/
theorem joint_ix4 (x : FVec Ideal ⟨3, ![4, 256, 256]⟩ .f32) (y : FVec Ideal ⟨3, ![4, 64, 256]⟩ .f32)
    (W : FVec Ideal ⟨2, ![1024, 256]⟩ .f32) (b : FVec Ideal ⟨1, ![1024]⟩ .f32)
    (n : Fin 4) (t : Fin 256) (u : Fin 64) (v : Fin 1024) :
    joint x y W b (ix4 n t u v) = jointAt x y W b n t u v := rfl

end Cert.Joint

end
-- ==== Proof.JointRef.lean ====
/-
  The reference computes the joint network's table: it repeats `x` along a new predictor axis and `y` along a new
  frame axis, multiplies the two `[4, 256, 64, 256]` arrays entry by entry, contracts the feature axis with the
  feature axis of `W`, and adds `b` repeated along the three leading axes. Read at an index `(n, t, u, v)` that is
  `Σ_d x[n, t, d] · y[n, u, d] · W[v, d] + b[v]`.
-/
import proofs.«179242_j24618752541227_2_alg».proof.Proof.Gen.ReferenceIdeal.Read
import proofs.«179242_j24618752541227_2_alg».proof.Proof.JointSpec

noncomputable section

open scoped BigOperators

namespace Cert.Joint

open Cert.ReferenceIdeal Cert.ReferenceIdeal.Read Idealize.ShloMosaic Idealize.ShloMosaic.ValueIdx

/-- The entry of `x` the product at `(n, t, u, k)` reads: the predictor axis is dropped. -/
theorem x_index (n : Fin 4) (t : Fin 256) (u : Fin 64) (v : Fin 1024) (k : Fin 256) :
    idx_main_v0 (idx_main_v2 (lidx_main_v5 (ix4 n t u v) k)) = ix3 n t k :=
  funext fun a => Fin.ext (by match a with | ⟨0, _⟩ => rfl | ⟨1, _⟩ => rfl | ⟨2, _⟩ => rfl)

/-- The entry of `y` it reads: the frame axis is dropped. -/
theorem y_index (n : Fin 4) (t : Fin 256) (u : Fin 64) (v : Fin 1024) (k : Fin 256) :
    idx_main_v1 (idx_main_v3 (lidx_main_v5 (ix4 n t u v) k)) = ix3 n u k :=
  funext fun a => Fin.ext (by match a with | ⟨0, _⟩ => rfl | ⟨1, _⟩ => rfl | ⟨2, _⟩ => rfl)

/-- The entry of `W` the contraction pairs with it: row `v`, feature `k`. -/
theorem w_index (n : Fin 4) (t : Fin 256) (u : Fin 64) (v : Fin 1024) (k : Fin 256) :
    ridx_main_v5 (ix4 n t u v) k = ix2 v k :=
  funext fun a => Fin.ext (by match a with | ⟨0, _⟩ => rfl | ⟨1, _⟩ => rfl)

/-- The entry of `b` added at `(n, t, u, v)`: entry `v`. -/
theorem b_index (n : Fin 4) (t : Fin 256) (u : Fin 64) (v : Fin 1024) :
    idx_main_v6 (idx_main_v7 (ix4 n t u v)) = ix1 v :=
  funext fun a => Fin.ext (by match a with | ⟨0, _⟩ => rfl)

/-- The reference's result is the joint network's table of its four arguments. -/
theorem reference_eq (x0 : FVec Ideal ⟨3, ![4, 256, 256]⟩ .f32) (x1 : FVec Ideal ⟨3, ![4, 64, 256]⟩ .f32)
    (x2 : FVec Ideal ⟨2, ![1024, 256]⟩ .f32) (x3 : FVec Ideal ⟨1, ![1024]⟩ .f32) :
    val_main_v8 (F := Ideal) x0 x1 x2 x3 = joint x0 x1 x2 x3 := by
  funext i
  obtain ⟨n, t, u, v, rfl⟩ : ∃ (n : Fin 4) (t : Fin 256) (u : Fin 64) (v : Fin 1024), i = ix4 n t u v :=
    ⟨i 0, i 1, i 2, i 3, eq_ix4 i⟩
  rw [val_main_v8_apply, val_main_v5_apply, val_main_v7_apply, val_main_v6_apply, b_index, joint_ix4]
  refine congrArg (· + x3 (ix1 v)) (Finset.sum_congr rfl fun k _ => ?_)
  rw [val_main_v4_apply, val_main_v2_apply, val_main_v0_apply, val_main_v3_apply, val_main_v1_apply,
    x_index, y_index, w_index]
  rfl

end Cert.Joint

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«179242_j24618752541227_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.LibMiddleAxis.lean ====
/-
  A unit axis in the middle, and the two ways a rank-3 broadcast fills around it, read at an index.

  A matrix `[a, c]` viewed as `[a, 1, c]` has, at `(p, u, q)`, the matrix entry `(p, q)`; repeated `b` times along
  the middle axis it has, at `(p, k, q)`, the entry `(p, q)` still. A column `[b, 1]` viewed as `[1, b, 1]` has, at
  `(u, k, u')`, the column's entry `k`; repeated along the first and last axes to `[a, b, c]` it has, at `(p, k, q)`,
  the entry `k`. Together: a table `f(p, q) ∘ g(k)` laid out with `k` on the middle axis. Last, the one element of a
  `[1, 1]` array taken out by position.
-/
import Idealize.ShloMosaic.Lib.ValueIdx
import Idealize.ShloMosaic.Lib.Pipeline.Value

namespace Cert.LibMiddleAxis

open Idealize.ShloMosaic Idealize.ShloMosaic.ValueIdx

variable {α : Type}

/-- An `[a, c]` array cast to `[a, 1, c]` reads, at `(p, u, q)`, the operand at `(p, q)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- A `[b, 1]` column cast to `[1, b, 1]` reads, at `(u, k, u')`, the column's entry `k`. -/
theorem shapeCast_b1_1b1_apply {b : ℕ} (x : (⟨2, ![b, 1]⟩ : Shape).Idx → α)
    (h : (⟨2, ![b, 1]⟩ : Shape).ShapeCasts ⟨3, ![1, b, 1]⟩) (u : Fin 1) (k : Fin b) (u' : Fin 1) :
    shapeCast ⟨3, ![1, b, 1]⟩ x h (ix3 u k u') = x (ix2 k (0 : Fin 1)) :=
  shapeCast_apply x h _ _ (by
    have hu : u.val = 0 := by omega
    have hu' : u'.val = 0 := by omega
    rw [Shape.rowMajor_val_three, Shape.rowMajor_val_two]
    show k.val * 1 + 0 = (u.val * b + k.val) * 1 + u'.val
    rw [hu, hu', Nat.zero_mul, Nat.zero_add])

/-- An `[a, 1, c]` array broadcast to `[a, b, c]` reads, at `(p, k, q)`, the operand at `(p, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ v h (ix3 p k q) = v (ix3 p (0 : Fin 1) q) := by
  refine broadcastTo_apply v h (ix3 p k q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, 1]` array broadcast to `[a, b, c]` reads, at `(p, k, q)`, the operand at `(0, k, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (k : Fin b) (q : Fin c) :
    broadcastTo ⟨3, ![a, b, c]⟩ v h (ix3 p k q) = v (ix3 (0 : Fin 1) k (0 : Fin 1)) := by
  refine broadcastTo_apply v h (ix3 p k q) (ix3 (0 : Fin 1) k (0 : Fin 1)) fun ax => ?_
  match ax with
  | ⟨0, _⟩ => rfl
  | ⟨1, _⟩ =>
    show k.val = if b = 1 then 0 else k.val
    split
    · have := k.isLt; omega
    · rfl
  | ⟨2, _⟩ => rfl

/-- The element of a `[1, 1]` array taken out at position (0, 0) is its entry `(0, 0)`. -/
theorem extractAt_11 (x : (⟨2, ![1, 1]⟩ : Shape).Idx → α)
    (h : ∀ d, (![0, 0] : Fin 2 → Nat) d < (⟨2, ![1, 1]⟩ : Shape).size d) :
    extractAt ![0, 0] x h = x (ix2 (0 : Fin 1) (0 : Fin 1)) := by
  unfold extractAt
  exact congrArg x (funext fun d => Fin.ext (by match d with | ⟨0, _⟩ => rfl | ⟨1, _⟩ => rfl))

end Cert.LibMiddleAxis
-- ==== Proof.LibMergeRows.lean ====
/-
  Two leading axes merged into one, and split again, read at an index; and one slab repeated along a new leading
  extent.

  A rank-3 array `[a, b, c]` reshaped to the matrix `[m, c]` (`m = a · b`) keeps the row-major order, so row
  `p · b + q` of the matrix is the array's row `(p, q)`; the reshape back reads the matrix the same way. A `[1, b, c]`
  slab broadcast to `[a, b, c]` has, at `(p, k, q)`, the slab's entry `(k, q)`. The three lemmas take the index by
  coordinates (`ix2`, `ix3`), so that they apply to a printed operation by unification.
-/
import Idealize.ShloMosaic.Lib.ValueIdx
import Idealize.ShloMosaic.Lib.Pipeline.Value

namespace Cert.LibMergeRows

open Idealize.ShloMosaic Idealize.ShloMosaic.ValueIdx

variable {α : Type}

/-- An `[a, b, c]` array cast to `[m, c]` reads, at `(r, e)` with `r = p · b + q`, the operand at `(p, q, e)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An `[m, c]` matrix cast to `[a, b, c]` reads, at `(p, q, e)`, the operand's row `r = p · b + q` at `e`. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_three, Shape.rowMajor_val_two]
    show r.val * c + e.val = (p.val * b + q.val) * c + e.val
    rw [hr])

/-- A `[1, b, c]` slab broadcast to `[a, b, c]` reads, at `(p, k, q)`, the slab at `(0, k, q)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (k : Fin b) (q : Fin c) :
    broadcastTo ⟨3, ![a, b, c]⟩ v h (ix3 p k q) = v (ix3 (0 : Fin 1) k q) := by
  refine broadcastTo_apply v h (ix3 p k q) (ix3 (0 : Fin 1) k q) fun ax => ?_
  match ax with
  | ⟨0, _⟩ => rfl
  | ⟨1, _⟩ =>
    show k.val = if b = 1 then 0 else k.val
    split
    · have := k.isLt; omega
    · rfl
  | ⟨2, _⟩ =>
    show q.val = if c = 1 then 0 else q.val
    split
    · have := q.isLt; omega
    · rfl

end Cert.LibMergeRows
-- ==== Proof.JointChunk.lean ====
/-
  What the kernel's body computes for one group of eight frames. The body takes eight rows `xc[r, ·]` of the frame
  block, the 64 predictor rows `yb[u, ·]`, the transposed weights `wt[d, v]` and the bias, forms the `8 · 64` rows
  `xc[r, ·] · yb[u, ·]` (row `r · 64 + u`), multiplies that `[512, 256]` matrix by `wt`, adds the bias to every row,
  and splits the rows back into `(r, u)`. Read at `(r, u, v)` the result is `Σ_d xc[r, d] · yb[u, d] · wt[d, v] + bias[v]`.
  The body is printed four times, once per group of eight frames; the four texts are one function.
-/
import proofs.«179242_j24618752541227_2_alg».proof.Proof.Gen.KernelIdeal.Skeleton
import proofs.«179242_j24618752541227_2_alg».proof.Proof.LibMatmulRows
import proofs.«179242_j24618752541227_2_alg».proof.Proof.LibMiddleAxis
import proofs.«179242_j24618752541227_2_alg».proof.Proof.LibMergeRows
import Idealize.ShloMosaic.Lib.ValueLayout

noncomputable section

open scoped BigOperators

namespace Cert.Joint

open Cert.KernelIdeal Cert.KernelIdeal.Gen Idealize.ShloMosaic Idealize.ShloMosaic.ValueIdx

/-- One group of eight frames: entry `(r, u, v)` of what the body stores is
    `Σ_d xc[r, d] · yb[u, d] · wt[d, v] + bias[v]`. -/
theorem chunk_apply (yb : FVec Ideal S64x256 .bf16) (wt : FVec Ideal S256x1024 .bf16) (bias : Vec Ideal S1024 .f32)
    (xc : Vec Ideal S1x8x256 .f32) (z : Fin 1) (r : Fin 8) (u : Fin 64) (v : Fin 1024) :
    k0_pay2 yb wt bias xc (ix4 z r u v)
      = (∑ k : Fin 256, xc (ix3 (0 : Fin 1) r k) * yb (ix2 u k) * wt (ix2 k v)) + bias (ix1 v) := by
  have hrow : (r.val * 64 + u.val) < 512 := by have := r.isLt; have := u.isLt; omega
  unfold k0_pay2
  refine (shapeCast_abc_1abc_apply _ _ z r u v).trans ?_
  refine (Cert.LibMergeRows.shapeCast_mc_abc_apply _ _ r u v ⟨r.val * 64 + u.val, hrow⟩ rfl).trans ?_
  refine (addf_apply _ _ _).trans ?_
  refine congrArg₂ (· + ·) ?_ ?_
  · refine (Cert.LibMatmulRows.matmul_rows_apply _ rfl rfl rfl rfl rfl rfl _ _ _ _).trans ?_
    refine Finset.sum_congr rfl fun k _ => ?_
    refine congrArg (· * wt (ix2 k v)) ?_
    refine (Cert.LibMergeRows.shapeCast_abc_mc_apply _ _ r u k ⟨r.val * 64 + u.val, hrow⟩ rfl).trans ?_
    refine (mulf_apply _ _ _).trans ?_
    refine congrArg₂ (· * ·) ?_ ?_
    · refine (Cert.LibMiddleAxis.broadcastTo_a1c_abc_apply _ _ r u k).trans ?_
      refine (Cert.LibMiddleAxis.shapeCast_ac_a1c_apply _ _ r (0 : Fin 1) k).trans ?_
      refine (truncf_apply (φ := .f32) (ψ := .bf16) _ bitsLt_bf16_f32 _).trans ?_
      exact shapeCast_1ab_ab_apply _ _ r k
    · refine (Cert.LibMergeRows.broadcastTo_1bc_abc_apply _ _ r u k).trans ?_
      exact shapeCast_ab_1ab_apply _ _ (0 : Fin 1) u k
  · refine (broadcastTo_1b_ab_apply _ _ _ v).trans ?_
    exact shapeCast_a_1a_apply _ _ (0 : Fin 1) v

/-- The predictor rows as the body uses them: the leading unit axis of the block dropped (the change of format is
    the identity on extended reals). -/
theorem yb_apply (y : Vec Ideal S1x64x256 .f32) (u : Fin 64) (k : Fin 256) :
    k0_pay4 y (ix2 u k) = y (ix3 (0 : Fin 1) u k) := by
  unfold k0_pay4
  refine (truncf_apply (φ := .f32) (ψ := .bf16) _ bitsLt_bf16_f32 _).trans ?_
  exact shapeCast_1ab_ab_apply _ _ u k

/-- The weights as the body uses them: the block itself. -/
theorem wt_eq (w : Vec Ideal S256x1024 .bf16) : k0_pay5 w = w := by
  unfold k0_pay5
  exact shapeCast_self _ _

/-- The four printed texts of the group's computation are one function: the first group's … -/
theorem first_eq (y : Vec Ideal S1x64x256 .f32) (w : Vec Ideal S256x1024 .bf16) (bias : Vec Ideal S1024 .f32)
    (xc : Vec Ideal S1x8x256 .f32) : k0_pay6 y w bias xc = k0_pay2 (k0_pay4 y) (k0_pay5 w) bias xc := rfl

/-- … the second group's, whose last reshape is printed apart … -/
theorem second_eq (y : Vec Ideal S1x64x256 .f32) (w : Vec Ideal S256x1024 .bf16) (bias : Vec Ideal S1024 .f32)
    (xc : Vec Ideal S1x8x256 .f32) :
    k0_pay1 (k0_pay7 y w bias xc) = k0_pay2 (k0_pay4 y) (k0_pay5 w) bias xc := rfl

/-- … and the fourth group's. -/
theorem fourth_eq (yb : FVec Ideal S64x256 .bf16) (wt : FVec Ideal S256x1024 .bf16) (bias : Vec Ideal S1024 .f32)
    (xc : Vec Ideal S1x8x256 .f32) : k0_pay3 yb wt bias xc = k0_pay2 yb wt bias xc := rfl

/-- A group's result from the loaded blocks themselves: entry `(r, u, v)` is
    `Σ_d xc[0, r, d] · y[0, u, d] · w[d, v] + bias[v]`. -/
theorem group_apply (y : Vec Ideal S1x64x256 .f32) (w : Vec Ideal S256x1024 .bf16) (bias : Vec Ideal S1024 .f32)
    (xc : Vec Ideal S1x8x256 .f32) (z : Fin 1) (r : Fin 8) (u : Fin 64) (v : Fin 1024) :
    k0_pay2 (k0_pay4 y) (k0_pay5 w) bias xc (ix4 z r u v)
      = (∑ k : Fin 256, xc (ix3 (0 : Fin 1) r k) * y (ix3 (0 : Fin 1) u k) * w (ix2 k v)) + bias (ix1 v) := by
  rw [chunk_apply, wt_eq]
  refine congrArg (· + bias (ix1 v)) (Finset.sum_congr rfl fun k _ => ?_)
  rw [yb_apply]

end Cert.Joint

end
-- ==== Proof.LibCanonUnit.lean ====
/-
  Reading, at one index, the contents a list of stores leaves when the NEWEST store went through a unit-stride
  rectangle `[off, off + size)`: an index inside the rectangle reads that store's payload at the index minus the
  offsets; an index that misses the rectangle on some axis reads what the earlier stores left. Two general lemmas over
  `View.canon` (the contents as a function of the pieces alone), for any shape, element type and value family.
-/
import Idealize.ShloMosaic.Lib.Pipeline.Value

noncomputable section

namespace Idealize.ShloMosaic.View

variable {Val : EltTy → Type} {S : Shape} {e : EltTy}

/-- An index `y` at position `x` of the newest piece's unit-stride rectangle (`y a = off a + x a` on every axis)
    reads that piece's payload at `x`, whatever the earlier pieces are. -/
theorem canon_cons_unit_of_mem [∀ e, Nonempty (Val e)] {off size : Fin S.rank → Nat}
    (inb : ∀ a, off a + size a ≤ S.size a) (w : (Rect.unit off size inb).shape.Idx → Val e)
    (L : List (Piece Val S e)) (y : S.Idx) (x : (Rect.unit off size inb).shape.Idx)
    (hx : ∀ a, (y a).val = off a + (x a).val) :
    View.canon ((⟨Rect.unit off size inb, w⟩ : Piece Val S e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the newest piece's unit-stride rectangle on axis `a` reads what the earlier pieces left. -/
theorem canon_cons_unit_of_not_mem [∀ e, Nonempty (Val e)] {off size : Fin S.rank → Nat}
    (inb : ∀ a, off a + size a ≤ S.size a) (w : (Rect.unit off size inb).shape.Idx → Val e)
    (L : List (Piece Val S e)) (y : S.Idx) (a : Fin S.rank)
    (ha : (y a).val < off a ∨ off a + size a ≤ (y a).val) :
    View.canon ((⟨Rect.unit off size inb, w⟩ : Piece Val S e) :: L) y = View.canon L y :=
  View.canon_cons_of_not_mem _ L (fun h => by
    have h' : y ∈ (Rect.unit off size inb).set := h
    have := (Rect.mem_set_unit.mp h') a
    omega)

end Idealize.ShloMosaic.View

end
-- ==== Proof.JointBlock.lean ====
/-
  What the kernel's body leaves in the output block, entry by entry. The body handles the block's 32 frames in four
  groups of eight: group `g` loads frames `8g … 8g + 7` of the frame block, computes their scores against all 64
  predictor rows, and stores them in rows `8g … 8g + 7` of the output block. The four stores tile the block, so its
  entry `(R, u, v)` is the one group `R / 8` stored at its row `R mod 8`, which is
  `Σ_d x[0, R, d] · y[0, u, d] · w[d, v] + bias[v]` of the four input blocks — the same expression for every frame `R`.
-/
import proofs.«179242_j24618752541227_2_alg».proof.Proof.Gen.KernelIdeal.Frame
import proofs.«179242_j24618752541227_2_alg».proof.Proof.JointChunk
import proofs.«179242_j24618752541227_2_alg».proof.Proof.LibCanonUnit

noncomputable section

open scoped BigOperators

namespace Cert.Joint

open Cert.KernelIdeal Cert.KernelIdeal.Gen Idealize.ShloMosaic Idealize.ShloMosaic.ValueIdx

theorem zeros1 : (![0] : Fin 1 → Nat) = fun _ => 0 := funext fun a => by fin_cases a; rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- Eight frames of the frame block from frame `o` on: row `r` of the load is the block's frame `o + r`. -/
theorem ld_frames (x0 : Vec Ideal S1x32x256 .f32) (o : Nat)
    (inb : ∀ a, (![0, o, 0] : Fin 3 → Nat) a + S1x8x256.size a ≤ S1x32x256.size a)
    (z : Fin 1) (r : Fin 8) (k : Fin 256) (R : Fin 32) (hR : R.val = o + r.val) :
    View.ld x0 (Rect.unit (s := S1x32x256) ![0, o, 0] S1x8x256.size inb) (ix3 z r k) = x0 (ix3 (0 : Fin 1) R k) := by
  show x0 ((Rect.unit (s := S1x32x256) ![0, o, 0] S1x8x256.size inb).idx (ix3 z r k)) = _
  refine congrArg x0 (funext fun a => Fin.ext ?_)
  match a with
  | ⟨0, _⟩ => show 0 + 1 * z.val = 0; omega
  | ⟨1, _⟩ => show o + 1 * r.val = R.val; omega
  | ⟨2, _⟩ => show 0 + 1 * k.val = k.val; omega

/-- A group's scores from the whole input blocks: for the group that loads from frame `o` on, entry `(r, u, v)` is
    the score of the block's frame `R = o + r`. -/
theorem group_frames (x0 : Vec Ideal S1x32x256 .f32) (x1 : Vec Ideal S1x64x256 .f32) (x2 : Vec Ideal S256x1024 .bf16)
    (x3 : Vec Ideal S1024 .f32) (o : Nat) (inb : ∀ a, (![0, o, 0] : Fin 3 → Nat) a + S1x8x256.size a ≤ S1x32x256.size a)
    (z : Fin 1) (r : Fin 8) (u : Fin 64) (v : Fin 1024) (R : Fin 32) (hR : R.val = o + r.val) :
    k0_pay2 (k0_pay4 x1) (k0_pay5 x2) x3 (View.ld x0 (Rect.unit (s := S1x32x256) ![0, o, 0] S1x8x256.size inb)) (ix4 z r u v)
      = (∑ k : Fin 256, x0 (ix3 (0 : Fin 1) R k) * x1 (ix3 (0 : Fin 1) u k) * x2 (ix2 k v)) + x3 (ix1 v) := by
  refine (group_apply x1 x2 x3 _ z r u v).trans ?_
  refine congrArg (· + x3 (ix1 v)) (Finset.sum_congr rfl fun k _ => ?_)
  exact congrArg (fun a => a * x1 (ix3 (0 : Fin 1) u k) * x2 (ix2 k v)) (ld_frames x0 o inb (0 : Fin 1) r k R hR)

/-- THE OUTPUT BLOCK after the body, at `(R, u, v)`: `Σ_d x[0, R, d] · y[0, u, d] · w[d, v] + bias[v]`. -/
theorem out_block (x0 : Vec Ideal S1x32x256 .f32) (x1 : Vec Ideal S1x64x256 .f32) (x2 : Vec Ideal S256x1024 .bf16)
    (x3 : Vec Ideal S1024 .f32) (z : Fin 1) (R : Fin 32) (u : Fin 64) (v : Fin 1024) :
    out0_4 x0 x1 x2 x3 (ix4 z R u v)
      = (∑ k : Fin 256, x0 (ix3 (0 : Fin 1) R k) * x1 (ix3 (0 : Fin 1) u k) * x2 (ix2 k v)) + x3 (ix1 v) := by
  have hRlt : R.val < 32 := R.isLt
  unfold out0_4
  simp only [View.ld_unit_zero (S := S1x64x256) zeros3, View.ld_unit_zero (S := S256x1024) zeros2,
    View.ld_unit_zero (S := S1024) zeros1]
  by_cases h3 : 24 ≤ R.val
  · -- the fourth group: frames 24 … 31
    refine (View.canon_cons_unit_of_mem _ _ _ (ix4 z R u v) (ix4 z (⟨R.val - 24, by omega⟩ : Fin 8) u v) (fun a => ?_)).trans ?_
    · match a with
      | ⟨0, _⟩ => show z.val = 0 + z.val; omega
      | ⟨1, _⟩ => show R.val = 24 + (R.val - 24); omega
      | ⟨2, _⟩ => show u.val = 0 + u.val; omega
      | ⟨3, _⟩ => show v.val = 0 + v.val; omega
    · refine (congrFun (fourth_eq _ _ _ _) _).trans ?_
      exact group_frames x0 x1 x2 x3 24 _ z _ u v R (by show R.val = 24 + (R.val - 24); omega)
  · refine (View.canon_cons_unit_of_not_mem _ _ _ (ix4 z R u v) (⟨1, by decide⟩ : Fin 4) (Or.inl (by show R.val < 24; omega))).trans ?_
    by_cases h2 : 16 ≤ R.val
    · -- the third group: frames 16 … 23
      refine (View.canon_cons_unit_of_mem _ _ _ (ix4 z R u v) (ix4 z (⟨R.val - 16, by omega⟩ : Fin 8) u v) (fun a => ?_)).trans ?_
      · match a with
        | ⟨0, _⟩ => show z.val = 0 + z.val; omega
        | ⟨1, _⟩ => show R.val = 16 + (R.val - 16); omega
        | ⟨2, _⟩ => show u.val = 0 + u.val; omega
        | ⟨3, _⟩ => show v.val = 0 + v.val; omega
      · exact group_frames x0 x1 x2 x3 16 _ z _ u v R (by show R.val = 16 + (R.val - 16); omega)
    · refine (View.canon_cons_unit_of_not_mem _ _ _ (ix4 z R u v) (⟨1, by decide⟩ : Fin 4) (Or.inl (by show R.val < 16; omega))).trans ?_
      by_cases h1 : 8 ≤ R.val
      · -- the second group: frames 8 … 15
        refine (View.canon_cons_unit_of_mem _ _ _ (ix4 z R u v) (ix4 z (⟨R.val - 8, by omega⟩ : Fin 8) u v) (fun a => ?_)).trans ?_
        · match a with
          | ⟨0, _⟩ => show z.val = 0 + z.val; omega
          | ⟨1, _⟩ => show R.val = 8 + (R.val - 8); omega
          | ⟨2, _⟩ => show u.val = 0 + u.val; omega
          | ⟨3, _⟩ => show v.val = 0 + v.val; omega
        · refine (congrFun (second_eq _ _ _ _) _).trans ?_
          exact group_frames x0 x1 x2 x3 8 _ z _ u v R (by show R.val = 8 + (R.val - 8); omega)
      · -- the first group: frames 0 … 7
        refine (View.canon_cons_unit_of_not_mem _ _ _ (ix4 z R u v) (⟨1, by decide⟩ : Fin 4) (Or.inl (by show R.val < 8; omega))).trans ?_
        refine (View.canon_cons_unit_of_mem _ _ _ (ix4 z R u v) (ix4 z (⟨R.val, by omega⟩ : Fin 8) u v) (fun a => ?_)).trans ?_
        · match a with
          | ⟨0, _⟩ => show z.val = 0 + z.val; omega
          | ⟨1, _⟩ => show R.val = 0 + R.val; omega
          | ⟨2, _⟩ => show u.val = 0 + u.val; omega
          | ⟨3, _⟩ => show v.val = 0 + v.val; omega
        · refine (congrFun (first_eq _ _ _ _) _).trans ?_
          exact group_frames x0 x1 x2 x3 0 _ z _ u v R (by show R.val = 0 + R.val; omega)

end Cert.Joint

end
-- ==== Proof.JointArray.lean ====
/-
  From the blocks to the whole table. The kernel runs over a grid of 4 · 8 points; point `(n, τ)` is handed frames
  `32τ … 32τ + 31` of batch element `n` of `x`, all 64 predictor rows of batch element `n` of `y`, the whole of the
  transposed weights (computed before the launch: entry `(d, v)` of them is `W[v, d]`) and the whole bias, and writes
  back block `(n, τ)` of the result, `[1, 32, 64, 1024]`. By the body's value (the block's entry `(R, u, v)` is
  `Σ_d x[0, R, d] · y[0, u, d] · w[d, v] + bias[v]` of the input blocks) what a point writes back is its block of the
  joint network's table of the four arguments; the 32 blocks tile the result, so the result IS that table.
-/
import proofs.«179242_j24618752541227_2_alg».proof.Proof.Gen.KernelIdeal.Value
import proofs.«179242_j24618752541227_2_alg».proof.Proof.JointBlock
import proofs.«179242_j24618752541227_2_alg».proof.Proof.JointSpec
import Idealize.ShloMosaic.Lib.StableHlo.Run
import Idealize.ShloMosaic.Lib.ValueLayout

noncomputable section

open scoped BigOperators

namespace Cert.Joint

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The joint network's table of the four argument arrays as launched. -/
abbrev scores (c : Dev nD) : S4x256x64x1024.Idx → EReal :=
  joint (m ((c : Thread nD τ).loc main_arg0)) (m ((c : Thread nD τ).loc main_arg1))
    (m ((c : Thread nD τ).loc main_arg2)) (m ((c : Thread nD τ).loc main_arg3))

/-! ## The arrays the region finds -/

/-- The weights the region stages are the transpose of `W` (the change of format is the identity). -/
theorem staged_weights (c : Dev nD) :
    @Eq (FVec Ideal S256x1024 .bf16) (V m c main_v1)
      (truncf .bf16 (transpose S256x1024 [1, 0] (m ((c : Thread nD τ).loc main_arg2)) transposes_S1024x256_S256x1024_1_0)
          bitsLt_bf16_f32) := by
  dsimp only [Gen.V, Gen.hostOps0]; after_results

/-- Entry `(k, v)` of the staged weights is `W[v, k]`. -/
theorem staged_weights_apply (c : Dev nD) (k : Fin 256) (v : Fin 1024) :
    (V m c main_v1 : FVec Ideal S256x1024 .bf16) (ix2 k v) = m ((c : Thread nD τ).loc main_arg2) (ix2 v k) := by
  refine (congrFun (staged_weights m c) _).trans ?_
  refine (truncf_apply (φ := .f32) (ψ := .bf16) _ bitsLt_bf16_f32 _).trans ?_
  exact transpose_ix2_apply _ _ k v

/-! ## The index maps, decided over the 32 points -/

/-- Where each window's block sits at a point: the frame block moves with the output block on the batch and frame
    axes; the predictor block moves with it on the batch axis; the weights and the bias are the whole arrays. -/
theorem index_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (2 : Fin 4) = 0 ∧ win0_4.index t (3 : Fin 4) = 0
    ∧ win0_4.index t (0 : Fin 4) < 4 ∧ win0_4.index t (1 : Fin 4) < 8 :=
  (by decide +kernel : ∀ t : Fin grid0.N, _)

/-- Every block of the result is some point's. -/
theorem index_onto : ∀ (q0 : Fin 4) (q1 : Fin 8), ∃ t : Fin cfg0.N, win0_4.index t = ![q0.val, q1.val, 0, 0] :=
  (by decide +kernel : ∀ (q0 : Fin 4) (q1 : Fin 8), ∃ t : Fin grid0.N, win0_4.index t = ![q0.val, q1.val, 0, 0])

/-! ## The input blocks at a point, read off the arguments -/

/-- The frame block at a point: its frame `R` is frame `T` of batch element `n` of `x`. -/
theorem frames_read (c : Dev nD) (t : Fin cfg0.N) (z : Fin 1) (R : Fin 32) (k : Fin 256) (n : Fin 4) (T : Fin 256)
    (hn : n.val = win0_4.index t (0 : Fin 4)) (hT : T.val = win0_4.index t (1 : Fin 4) * 32 + R.val) :
    iblk m c 0 t (ix3 z R k) = m ((c : Thread nD τ).loc main_arg0) (ix3 n T k) := by
  obtain ⟨e00, e01, e02, -⟩ := index_facts t
  have hz : z.val = 0 := by omega
  show V m c main_arg0 (((cfg0.win 0).blk t).view.emb (ix3 z R k)) = _
  refine (congrFun (V_main_arg0 m c) _).trans (congrArg _ (funext fun a => Fin.ext ?_))
  match a with
  | ⟨0, _⟩ => show win0_0.index t (0 : Fin 3) * 1 + 1 * z.val = n.val; omega
  | ⟨1, _⟩ => show win0_0.index t (1 : Fin 3) * 32 + 1 * R.val = T.val; omega
  | ⟨2, _⟩ => show win0_0.index t (2 : Fin 3) * 256 + 1 * k.val = k.val; omega

/-- The predictor block at a point: its row `u` is row `u` of batch element `n` of `y`. -/
theorem preds_read (c : Dev nD) (t : Fin cfg0.N) (z : Fin 1) (u : Fin 64) (k : Fin 256) (n : Fin 4)
    (hn : n.val = win0_4.index t (0 : Fin 4)) :
    iblk m c 1 t (ix3 z u k) = m ((c : Thread nD τ).loc main_arg1) (ix3 n u k) := by
  obtain ⟨-, -, -, e10, e11, e12, -⟩ := index_facts t
  have hz : z.val = 0 := by omega
  show V m c main_arg1 (((cfg0.win 1).blk t).view.emb (ix3 z u k)) = _
  refine (congrFun (V_main_arg1 m c) _).trans (congrArg _ (funext fun a => Fin.ext ?_))
  match a with
  | ⟨0, _⟩ => show win0_1.index t (0 : Fin 3) * 1 + 1 * z.val = n.val; omega
  | ⟨1, _⟩ => show win0_1.index t (1 : Fin 3) * 64 + 1 * u.val = u.val; omega
  | ⟨2, _⟩ => show win0_1.index t (2 : Fin 3) * 256 + 1 * k.val = k.val; omega

/-- The weights block at a point is the whole of the staged weights: entry `(k, v)` is `W[v, k]`. -/
theorem weights_read (c : Dev nD) (t : Fin cfg0.N) (k : Fin 256) (v : Fin 1024) :
    iblk m c 2 t (ix2 k v) = m ((c : Thread nD τ).loc main_arg2) (ix2 v k) := by
  obtain ⟨-, -, -, -, -, -, e20, e21, -⟩ := index_facts t
  show V m c main_v1 (((cfg0.win 2).blk t).view.emb (ix2 k v)) = _
  refine (congrArg (V m c main_v1) (funext fun a => Fin.ext ?_)).trans (staged_weights_apply m c k v)
  match a with
  | ⟨0, _⟩ => show win0_2.index t (0 : Fin 2) * 256 + 1 * k.val = k.val; omega
  | ⟨1, _⟩ => show win0_2.index t (1 : Fin 2) * 1024 + 1 * v.val = v.val; omega

/-- The bias block at a point is the whole bias. -/
theorem bias_read (c : Dev nD) (t : Fin cfg0.N) (v : Fin 1024) :
    iblk m c 3 t (ix1 v) = m ((c : Thread nD τ).loc main_arg3) (ix1 v) := by
  obtain ⟨-, -, -, -, -, -, -, -, e30, -⟩ := index_facts t
  show V m c main_arg3 (((cfg0.win 3).blk t).view.emb (ix1 v)) = _
  refine (congrFun (V_main_arg3 m c) _).trans (congrArg _ (funext fun a => Fin.ext ?_))
  match a with
  | ⟨0, _⟩ => show win0_3.index t (0 : Fin 1) * 1024 + 1 * v.val = v.val; omega

/-! ## What a point writes back -/

/-- WHAT POINT `t` WRITES BACK is block `t` of the joint network's table of the arguments. -/
theorem flushed_eq (c : Dev nD) (t : Fin cfg0.N) :
    (dats m 0 c).flushed 4 t = ((cfg0.win 4).blk t).view.read (Elt Ideal) (scores m c) := by
  rw [Cert.KernelIdeal.Value.flushed4]
  funext j
  obtain ⟨z, R, u, v, rfl⟩ : ∃ (z : Fin 1) (R : Fin 32) (u : Fin 64) (v : Fin 1024), j = ix4 z R u v :=
    ⟨j 0, j 1, j 2, j 3, eq_ix4 (n0 := 1) (n1 := 32) (n2 := 64) (n3 := 1024) j⟩
  obtain ⟨-, -, -, -, -, -, -, -, -, e42, e43, b0, b1⟩ := index_facts t
  have hz : z.val = 0 := by omega
  have hR : R.val < 32 := R.isLt
  show out0_4 (iblk m c 0 t) (iblk m c 1 t) (iblk m c 2 t) (iblk m c 3 t) (ix4 z R u v)
    = scores m c (((cfg0.win 4).blk t).view.emb (ix4 z R u v))
  refine (out_block _ _ _ _ z R u v).trans ?_
  have hI : ((cfg0.win 4).blk t).view.emb (ix4 z R u v)
      = ix4 (⟨win0_4.index t (0 : Fin 4), b0⟩ : Fin 4) (⟨win0_4.index t (1 : Fin 4) * 32 + R.val, by omega⟩ : Fin 256) u v :=
    funext fun a => Fin.ext (by
      match a with
      | ⟨0, _⟩ => show win0_4.index t (0 : Fin 4) * 1 + 1 * z.val = win0_4.index t (0 : Fin 4); omega
      | ⟨1, _⟩ => show win0_4.index t (1 : Fin 4) * 32 + 1 * R.val = win0_4.index t (1 : Fin 4) * 32 + R.val; omega
      | ⟨2, _⟩ => show win0_4.index t (2 : Fin 4) * 64 + 1 * u.val = u.val; omega
      | ⟨3, _⟩ => show win0_4.index t (3 : Fin 4) * 1024 + 1 * v.val = v.val; omega)
  rw [hI]
  show _ = jointAt _ _ _ _ _ _ u v
  unfold jointAt
  refine congrArg₂ (· + ·) (Finset.sum_congr rfl fun k _ => ?_) (bias_read m c t v)
  exact congrArg₂ (· * ·)
    (congrArg₂ (· * ·) (frames_read m c t (0 : Fin 1) R k _ _ (by rfl) (by rfl)) (preds_read m c t (0 : Fin 1) u k _ (by rfl)))
    (weights_read m c t k v)

/-! ## The blocks tile the result -/

/-- An index of the result is in point `t`'s block iff each coordinate is in the block's range on its axis. -/
theorem mem_block (t : Fin cfg0.N) (i : S4x256x64x1024.Idx) :
    i ∈ ((cfg0.win 4).blk t).view.set ↔ ∀ a : Fin 4, win0_4.index t a * S1x32x64x1024.size a ≤ (i a).val
      ∧ (i a).val < win0_4.index t a * S1x32x64x1024.size a + S1x32x64x1024.size a := by
  show i ∈ ((View.whole main_v2).slice (win0_4.rect t)).set ↔ _
  rw [View.set_slice_whole, Rect.mem_set_unit]
  exact Iff.rfl

/-- Every index of the result is in the block of the point `(n, T / 32)`. -/
theorem covered (i : S4x256x64x1024.Idx) :
    ∃ t : Fin cfg0.N, (cfg0.win 4).flush t = true ∧ i ∈ ((cfg0.win 4).blk t).view.set := by
  have h0 : (i 0).val < 4 := (i 0).isLt
  have h1 : (i 1).val < 256 := (i 1).isLt
  have h2 : (i 2).val < 64 := (i 2).isLt
  have h3 : (i 3).val < 1024 := (i 3).isLt
  obtain ⟨t, ht⟩ := index_onto ⟨(i 0).val, h0⟩ ⟨(i 1).val / 32, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 64 ≤ (i 2).val ∧ (i 2).val < win0_4.index t (2 : Fin 4) * 64 + 64; omega
  | ⟨3, _⟩ => show win0_4.index t (3 : Fin 4) * 1024 ≤ (i 3).val ∧ (i 3).val < win0_4.index t (3 : Fin 4) * 1024 + 1024; omega

/-! ## The result array, and the run -/

/-- THE RESULT after the run is the joint network's table of the arguments. -/
theorem final (c : Dev nD) : (dats m 0 c).arrAt 4 cfg0.N = scores m c :=
  (dats m 0 c).arrAt_eq_of_cover 4 (scores m c) (fun t _ => flushed_eq m c t) covered

/-- The kernel's run: every weakly fair execution terminates with the result at the joint network's table of the
    arguments, the arguments unchanged. -/
theorem run : θ_run defs (onTc (τ := τ) (main (F := Ideal))) ⟨m, fun _ => 0, ρ⟩ fun r => ∀ c : Dev nD,
      r.2.mem ((c : Thread nD τ).loc main_v2) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Joint

end
-- ==== Proof.lean ====
/-
  The joint network of a transducer: `out[n, t, u, v] = Σ_d x[n, t, d] · y[n, u, d] · W[v, d] + b[v]` over
  `x : [4, 256, 256]`, `y : [4, 64, 256]`, `W : [1024, 256]`, `b : [1024]`.

  The kernel transposes `W` before its launch and then, at each of 4 · 8 grid points, takes 32 frames of one batch
  element and all of its 64 predictor rows, and for each group of eight frames forms the 512 products of a frame row
  with a predictor row, multiplies that `[512, 256]` matrix by the transposed weights and adds the bias. The reference
  repeats `x` and `y` to `[4, 256, 64, 256]`, multiplies, contracts the feature axis with `W`'s and adds the bias. Over
  the extended reals (where the kernel's changes of float format are the identity and both matrix products are exact
  sums) the two are the same expression entry by entry — the products associated the same way, the sum over the
  same 256 features — so the two results are equal with no law of arithmetic beyond re-indexing, and the inputs'
  finiteness is not used.

  `Cert.Joint.run` (JointArray) reads the kernel's result array as that table; `Cert.Joint.reference_eq` (JointRef)
  reads the reference's. Reading the kernel over the extended reals rewrites none of its operations, so nothing is
  owed for that reading beyond the two runs.
-/
import proofs.«179242_j24618752541227_2_alg».proof.Defs
import proofs.«179242_j24618752541227_2_alg».proof.Proof.Gen.Kernel
import proofs.«179242_j24618752541227_2_alg».proof.Proof.Gen.Kernel.Frame
import proofs.«179242_j24618752541227_2_alg».proof.Proof.Gen.KernelIdeal
import proofs.«179242_j24618752541227_2_alg».proof.Proof.Gen.KernelIdeal.Frame
import proofs.«179242_j24618752541227_2_alg».proof.Proof.Gen.KernelIdeal.Value
import proofs.«179242_j24618752541227_2_alg».proof.Proof.Gen.ReferenceIdeal
import proofs.«179242_j24618752541227_2_alg».proof.Proof.Gen.ReferenceIdeal.Run
import proofs.«179242_j24618752541227_2_alg».proof.Proof.Gen.ReferenceIdeal.Read
import proofs.«179242_j24618752541227_2_alg».proof.Proof.Gen.Pre_finite_inputs
import proofs.«179242_j24618752541227_2_alg».proof.Proof.JointRef
import proofs.«179242_j24618752541227_2_alg».proof.Proof.JointArray

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on `x`, `y`, `W` and `b`, the kernel's result and the reference's are both the joint
    network's table of those four arrays. -/
theorem algebraic : Cert.algebraic_KernelIdeal_ReferenceIdeal := by
  intro m ρ m' ρ' _ hagree
  refine ⟨fun c => Cert.Joint.scores m c, Cert.Joint.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v8_eq _ _ _ _).trans (Cert.Joint.reference_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
